-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_arg3)) (v2 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S500000x128 : Shape := ⟨2, ![500000, 128]⟩
abbrev S4x2 : Shape := ⟨2, ![4, 2]⟩
abbrev S999994x3 : Shape := ⟨2, ![999994, 3]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S4x2 : S_.BroadcastsInDim S4x2 (![] : Fin 0 → Fin S4x2.rank)
  reducesTo_S4x2_S_d0_1 : S4x2.ReducesTo [0, 1] S_

variable [Facts]

def fn {F : FTy → Type} [FloatOps F] (main_arg0 : FVec F S500000x2 .f32) (main_arg1 : FVec F S500000x128 .f32) (main_arg2 : FVec F S4x2 .f32) (main_arg3 : IVec S999994x3 32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S4x2 .f32 := Host.absf main_arg2
  let main_cst_2 : FVec F S_ .f32 := constant S_ .f32 0x7F800000#32
  let main_v10 : FVec F S4x2 .f32 := broadcastInDim S4x2 ![] bcast_S_S4x2 main_cst_2
  let main_v11 : IVec S4x2 1 := cmpf .olt main_v9 main_v10
  let main_c_3 : IVec S_ 1 := constantI S_ 1 1#1
  let main_v12 : IVec S_ 1 := (fun x v => Host.reduce IntOp.andi x v reducesTo_S4x2_S_d0_1 h_S_) main_v11 main_c_3
  let main_v13 : IVec S_ 1 := andi main_v8 main_v12
  main_v13
-- ==== Kernel.lean ====
abbrev S500000x2 : Shape := ⟨2, ![500000, 2]⟩
abbrev S500000x128 : Shape := ⟨2, ![500000, 128]⟩
abbrev S4x2 : Shape := ⟨2, ![4, 2]⟩
abbrev S999994x3 : Shape := ⟨2, ![999994, 3]⟩
abbrev S1000000 : Shape := ⟨1, ![1000000]⟩
abbrev S_ : Shape := ⟨0, ![]⟩
abbrev S1003520 : Shape := ⟨1, ![1003520]⟩
abbrev S7840x128 : Shape := ⟨2, ![7840, 128]⟩
abbrev S1960x128 : Shape := ⟨2, ![1960, 128]⟩
abbrev S1 : Shape := ⟨1, ![1]⟩
abbrev S500000x3 : Shape := ⟨2, ![500000, 3]⟩

abbrev nBuf : Space → Nat
  | .hbm => 19
  | .vmem => 4
  | .smem => 0
  | _ => 0

abbrev bufTy : (tb : Table) → Fin (tcTables nBuf tb) → BufTy
  | .hbm, ⟨0, _⟩ => ⟨S500000x2, .f32⟩
  | .hbm, ⟨1, _⟩ => ⟨S500000x128, .f32⟩
  | .hbm, ⟨2, _⟩ => ⟨S4x2, .f32⟩
  | .hbm, ⟨3, _⟩ => ⟨S999994x3, .i32⟩
  | .hbm, ⟨4, _⟩ => ⟨S1000000, .f32⟩
  | .hbm, ⟨5, _⟩ => ⟨S_, .i32⟩
  | .hbm, ⟨6, _⟩ => ⟨S_, .f32⟩
  | .hbm, ⟨7, _⟩ => ⟨S1003520, .f32⟩
  | .hbm, ⟨8, _⟩ => ⟨S7840x128, .f32⟩
  | .hbm, ⟨9, _⟩ => ⟨S7840x128, .f32⟩
  | .hbm, ⟨10, _⟩ => ⟨S1003520, .f32⟩
  | .hbm, ⟨11, _⟩ => ⟨S1000000, .f32⟩
  | .hbm, ⟨12, _⟩ => ⟨S500000x2, .f32⟩
  | .hbm, ⟨13, _⟩ => ⟨S_, .i32⟩
  | .hbm, ⟨14, _⟩ => ⟨S1, .i32⟩
  | .hbm, ⟨15, _⟩ => ⟨S500000x2, .f32⟩
  | .hbm, ⟨16, _⟩ => ⟨S_, .f32⟩
  | .hbm, ⟨17, _⟩ => ⟨S_, .f32⟩
  | .hbm, ⟨18, _⟩ => ⟨S500000x3, .f32⟩
  | .local _ .vmem, ⟨0, _⟩ => ⟨S1960x128, .f32⟩
  | .local _ .vmem, ⟨1, _⟩ => ⟨S1960x128, .f32⟩
  | .local _ .vmem, ⟨2, _⟩ => ⟨S1960x128, .f32⟩
  | .local _ .vmem, ⟨3, _⟩ => ⟨S1960x128, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_call1_v0 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1960x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1960x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S500000x2_S1000000 : S500000x2.ShapeCasts S1000000
  pads_S1000000_S1003520_035200 : S1000000.Pads (![0] : Fin 1 → Nat) ![3520] ![0] S1003520
  h_S_ : 0 < S_.numel
  shapeCasts_S1003520_S7840x128 : S1003520.ShapeCasts S7840x128
  inb_S1960x128_S1960x128_0_0 : ∀ a, (![0, 0] : Fin 2 → Nat) a + S1960x128.size a ≤ S1960x128.size a
  h_S1960x128 : 0 < S1960x128.numel
  shapeCasts_S1960x128_S1960x128 : S1960x128.ShapeCasts S1960x128
  shapeCasts_S7840x128_S1003520 : S7840x128.ShapeCasts S1003520
  slices_S1003520_S1000000_0 : S1003520.Slices ![0] S1000000
  shapeCasts_S1000000_S500000x2 : S1000000.ShapeCasts S500000x2
  bcast_S_S1 : S_.BroadcastsInDim S1 (![] : Fin 0 → Fin S1.rank)
  pads_S500000x2_S500000x3_000_010 : S500000x2.Pads (![0, 0] : Fin 2 → Nat) ![0, 1] ![0, 0] S500000x3
  scatter_S500000x2_S1_S4x2_01_n_0_0_wf : ScatterDims.WF S500000x2 S1 S4x2 [0, 1] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1960x128.size a ≤ S7840x128.size a
  hwx0_0 : ∀ i : grid0.Coords, EltTy.bits .f32 = 32 ∨ (Rect.block (s := S7840x128) S1960x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1960x128.size a ≤ S7840x128.size a
  hwx0_1 : ∀ i : grid0.Coords, EltTy.bits .f32 = 32 ∨ (Rect.block (s := S7840x128) S1960x128.size (cc0_transform_1 i) (hinb0_1 i)).WholeWords (EltTy.packing .f32)

variable [Facts₀]

def scatter_S500000x2_S1_S4x2_01_n_0_0 : ScatterDims S500000x2 S1 S4x2 where
  updateWindowDims := [0, 1]
  insertedWindowDims := []
  scatterDimsToOperandDims := [0]
  indexVectorDim := 0
  wf := scatter_S500000x2_S1_S4x2_01_n_0_0_wf

abbrev win0_0 : Pipeline.Window sig grid0 :=
  Pipeline.Window.ofSpec (Memref.whole main_v2) S1960x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1960x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S500000x2 : Shape := ⟨2, ![500000, 2]⟩
abbrev S500000x128 : Shape := ⟨2, ![500000, 128]⟩
abbrev S4x2 : Shape := ⟨2, ![4, 2]⟩
abbrev S999994x3 : Shape := ⟨2, ![999994, 3]⟩
abbrev S_ : Shape := ⟨0, ![]⟩
abbrev S1 : Shape := ⟨1, ![1]⟩
abbrev S500000x3 : Shape := ⟨2, ![500000, 3]⟩

abbrev nBuf : Space → Nat
  | .hbm => 24
  | .vmem => 0
  | .smem => 0
  | _ => 0

abbrev bufTy : (tb : Table) → Fin (tcTables nBuf tb) → BufTy
  | .hbm, ⟨0, _⟩ => ⟨S500000x2, .f32⟩
  | .hbm, ⟨1, _⟩ => ⟨S500000x128, .f32⟩
  | .hbm, ⟨2, _⟩ => ⟨S4x2, .f32⟩
  | .hbm, ⟨3, _⟩ => ⟨S999994x3, .i32⟩
  | .hbm, ⟨4, _⟩ => ⟨S500000x2, .f32⟩
  | .hbm, ⟨5, _⟩ => ⟨S500000x2, .f32⟩
  | .hbm, ⟨6, _⟩ => ⟨S_, .f32⟩
  | .hbm, ⟨7, _⟩ => ⟨S500000x2, .f32⟩
  | .hbm, ⟨8, _⟩ => ⟨S500000x2, .f32⟩
  | .hbm, ⟨9, _⟩ => ⟨S_, .f32⟩
  | .hbm, ⟨10, _⟩ => ⟨S500000x2, .f32⟩
  | .hbm, ⟨11, _⟩ => ⟨S500000x2, .f32⟩
  | .hbm, ⟨12, _⟩ => ⟨S_, .f32⟩
  | .hbm, ⟨13, _⟩ => ⟨S500000x2, .f32⟩
  | .hbm, ⟨14, _⟩ => ⟨S500000x2, .f32⟩
  | .hbm, ⟨15, _⟩ => ⟨S_, .f32⟩
  | .hbm, ⟨16, _⟩ => ⟨S500000x2, .f32⟩
  | .hbm, ⟨17, _⟩ => ⟨S500000x2, .f32⟩
  | .hbm, ⟨18, _⟩ => ⟨S_, .i32⟩
  | .hbm, ⟨19, _⟩ => ⟨S1, .i32⟩
  | .hbm, ⟨20, _⟩ => ⟨S500000x2, .f32⟩
  | .hbm, ⟨21, _⟩ => ⟨S_, .f32⟩
  | .hbm, ⟨22, _⟩ => ⟨S_, .f32⟩
  | .hbm, ⟨23, _⟩ => ⟨S500000x3, .f32⟩
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call0_v0 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  bcast_S_S500000x2 : S_.BroadcastsInDim S500000x2 (![] : Fin 0 → Fin S500000x2.rank)
  bcast_S_S1 : S_.BroadcastsInDim S1 (![] : Fin 0 → Fin S1.rank)
  pads_S500000x2_S500000x3_000_010 : S500000x2.Pads (![0, 0] : Fin 2 → Nat) ![0, 1] ![0, 0] S500000x3
  h_S_ : 0 < S_.numel
  scatter_S500000x2_S1_S4x2_01_n_0_0_wf : ScatterDims.WF S500000x2 S1 S4x2 [0, 1] [] [0] 0

variable [Facts₀]

def scatter_S500000x2_S1_S4x2_01_n_0_0 : ScatterDims S500000x2 S1 S4x2 where
  updateWindowDims := [0, 1]
  insertedWindowDims := []
  scatterDimsToOperandDims := [0]
  indexVectorDim := 0
  wf := scatter_S500000x2_S1_S4x2_01_n_0_0_wf

class Facts : Prop extends Facts₀ where

variable [Facts]
-- ==== Proof.Sigmoid.lean ====
/-
  The scalar mathematics of the screen projection.

  Every logit x is sent to the screen coordinate 2·σ(x) − 1, where σ(x) = 1 / (1 + e^(−x)) is the logistic
  function.  One program applies σ as a single operation; the other spells it out as a negation, an
  exponential, the sum with 1 and the quotient of 1 by that sum.  On the extended reals the logistic function
  IS that expression (with the conventions σ(−∞) = 0, σ(+∞) = 1 that the quotient and the exponential give by
  themselves), so the two spellings agree at every extended real: no finiteness is needed.  The only literal
  that has to be evaluated is the binary32 word of 1 inside σ's own expression; the factor 2 and the
  subtracted 1 are the same words on both sides and are never opened.
-/
import Idealize.ShloMosaic.PureOps.Ideal

noncomputable section

namespace Cert.Spec

open Idealize.ShloMosaic

/-- The binary32 word 0x3F800000 has sign 0, exponent field 127 (the bias) and significand field 0: it denotes
    (2^23 + 0) · 2^(127 − 127 − 23) = 1. -/
theorem word_one : Ideal.ofBits .f32 0x3F800000#32 = (1 : EReal) := by
  simp [Ideal.ofBits, Ideal.ieee, -EReal.coe_mul]
  norm_num

/-- The screen coordinate of a logit, 2·σ(x) − 1, on the extended reals; the factor and the subtrahend are kept as
    the binary32 words of 2 and of 1. -/
def screen (x : Ideal .f32) : Ideal .f32 :=
  FloatOps.subf (FloatOps.mulf (FloatOps.logistic x) (FloatOps.ofBits .f32 0x40000000#32))
    (FloatOps.ofBits .f32 0x3F800000#32)

/-- The logistic function spelt out with the host's operations, 1 / (1 + e^(−x)) with both ones the binary32 word of
    1, is the logistic function. -/
theorem logistic_spelt (x : Ideal .f32) :
    FloatOps.hostDivf (FloatOps.ofBits .f32 0x3F800000#32)
        (FloatOps.addf (FloatOps.ofBits .f32 0x3F800000#32) (FloatOps.hostUnary .exp (FloatOps.hostNegf x)))
      = FloatOps.logistic x := by
  rw [Ideal.ofBits_def, word_one]
  rfl

/-- The spelt-out program's value at a logit is its screen coordinate. -/
theorem screen_spelt (x : Ideal .f32) :
    FloatOps.subf
        (FloatOps.mulf
          (FloatOps.hostDivf (FloatOps.ofBits .f32 0x3F800000#32)
            (FloatOps.addf (FloatOps.ofBits .f32 0x3F800000#32) (FloatOps.hostUnary .exp (FloatOps.hostNegf x))))
          (FloatOps.ofBits .f32 0x40000000#32))
        (FloatOps.ofBits .f32 0x3F800000#32)
      = screen x := by
  rw [logistic_spelt]
  rfl

end Cert.Spec

end
-- ==== Proof.RefValue.lean ====
/-
  The reference, read as mathematics: it computes 1 / (1 + e^(−x)) with separate operations at every logit x of the
  points, doubles it and subtracts 1 — the screen coordinate of x — and then pins rows 0…3 to the boundary corners
  and appends a column of ones.
-/
import proofs.«104068_j80075370266852_2_alg».proof.Proof.Gen.ReferenceIdeal
import proofs.«104068_j80075370266852_2_alg».proof.Proof.Sigmoid

noncomputable section

namespace Cert.ReferenceIdeal.Spelt

open Cert.ReferenceIdeal Cert.ReferenceIdeal.Gen Idealize.ShloMosaic

/-- The reference's array before the pinning is the screen coordinate of the points, entry by entry: each broadcast
    constant reads its one word at every entry, and the remaining operations act entry by entry. -/
theorem core (x : S500000x2.Idx → Elt Ideal .f32) :
    subf
        (mulf
          (Host.divf (broadcastInDim S500000x2 ![] bcast_S_S500000x2 (constant S_ .f32 0x3F800000#32))
            (addf (broadcastInDim S500000x2 ![] bcast_S_S500000x2 (constant S_ .f32 0x3F800000#32))
              (Host.exp (Host.negf x))))
          (broadcastInDim S500000x2 ![] bcast_S_S500000x2 (constant S_ .f32 0x40000000#32)))
        (broadcastInDim S500000x2 ![] bcast_S_S500000x2 (constant S_ .f32 0x3F800000#32))
      = fun i => Cert.Spec.screen (x i) := by
  funext i
  exact Cert.Spec.screen_spelt (x i)

end Cert.ReferenceIdeal.Spelt

end
-- ==== Proof.Detour.lean ====
/-
  The layout mathematics of the flattened, padded, tiled detour.

  One program does not apply the pointwise map g to the [500000, 2] array x directly.  It lists the 1 000 000
  entries of x in row-major order, appends 3520 padding entries to reach 1 003 520 = 7840 · 128, folds the list into
  7840 rows of 128, applies g entry by entry, unfolds the rows back into a list, keeps the first 1 000 000 entries and
  folds them back into [500000, 2].  Folding and unfolding keep the row-major position of every entry, so they undo
  each other; g acts entry by entry, so it commutes with every re-indexing; and the first 1 000 000 entries of the
  padded list are the list itself.  Hence the detour computes g of x, entry by entry, whatever the padding value is
  (g of the padding is computed and thrown away).
-/
import Idealize.ShloMosaic.Lib.Pipeline.Value

noncomputable section

namespace Cert.Spec

open Idealize.ShloMosaic

/-- The points: 500 000 rows of two logits. -/
abbrev Pts : Shape := ⟨2, ![500000, 2]⟩
/-- Their row-major list. -/
abbrev Flat : Shape := ⟨1, ![1000000]⟩
/-- The list with 3520 padding entries appended. -/
abbrev FlatPad : Shape := ⟨1, ![1003520]⟩
/-- The padded list folded into rows of 128. -/
abbrev Rows : Shape := ⟨2, ![7840, 128]⟩

/-- The first 1 000 000 entries of a list padded at its end are the list: position j < 1 000 000 of the padded list
    lies at or after the low padding (none), on the stride (1), and inside the operand, and reads its entry j. -/
theorem slice_pad {α : Type} (x : Flat.Idx → α) {u : Shape} (v : u.Idx → α)
    (hp : Flat.Pads (![0] : Fin 1 → Nat) ![3520] ![0] FlatPad) (hu : 0 < u.numel) (hs : FlatPad.Slices ![0] Flat) :
    extractStridedSlice Flat ![0] (pad FlatPad ![0] ![3520] ![0] x v hp hu) hs = x := by
  funext j
  have hj : (j 0).val < 1000000 := (j 0).isLt
  unfold extractStridedSlice pad
  have hin : ∀ a : Fin Flat.rank,
      (![0] : Fin 1 → Nat) a ≤ (0 + (j 0).val) ∧ ((0 + (j 0).val) - (![0] : Fin 1 → Nat) a) % ((![0] : Fin 1 → Nat) a + 1) = 0
        ∧ ((0 + (j 0).val) - (![0] : Fin 1 → Nat) a) / ((![0] : Fin 1 → Nat) a + 1) < Flat.size a := by
    intro a
    match a with
    | ⟨0, _⟩ =>
      show 0 ≤ 0 + (j 0).val ∧ (0 + (j 0).val - 0) % (0 + 1) = 0 ∧ (0 + (j 0).val - 0) / (0 + 1) < 1000000
      omega
  rw [dif_pos (by
    intro a
    match a with
    | ⟨0, _⟩ => exact hin 0)]
  refine congrArg x (funext fun a => Fin.ext ?_)
  match a with
  | ⟨0, _⟩ =>
    show (0 + (j 0).val - 0) / (0 + 1) = (j 0).val
    omega

/-- Folding a list into rows, mapping g entry by entry and unfolding the rows again is mapping g over the list: the two
    re-indexings keep every entry's row-major position, so they undo each other. -/
theorem unfold_map_fold {α β : Type} (g : α → β) (y : FlatPad.Idx → α) (h2 : FlatPad.ShapeCasts Rows)
    (h3 : Rows.ShapeCasts FlatPad) :
    shapeCast FlatPad (fun i => g (shapeCast Rows y h2 i)) h3 = fun k => g (y k) := by
  funext k
  exact congrArg g (congrFun (shapeCast_shapeCast y h2 h3) k)

/-- Keeping the first 1 000 000 entries of g mapped over a padded list is g mapped over the list: the padding's
    images are exactly what is dropped. -/
theorem keep_map_pad {α β : Type} (g : α → β) (y : Flat.Idx → α) {u : Shape} (v : u.Idx → α)
    (hp : Flat.Pads (![0] : Fin 1 → Nat) ![3520] ![0] FlatPad) (hu : 0 < u.numel) (hs : FlatPad.Slices ![0] Flat) :
    extractStridedSlice Flat ![0] (fun k => g (pad FlatPad ![0] ![3520] ![0] y v hp hu k)) hs = fun j => g (y j) := by
  funext j
  exact congrArg g (congrFun (slice_pad y v hp hu hs) j)

/-- Listing the points, mapping g over the list and folding it back into points is mapping g over the points. -/
theorem fold_map_list {α β : Type} (g : α → β) (x : Pts.Idx → α) (h1 : Pts.ShapeCasts Flat) (h4 : Flat.ShapeCasts Pts) :
    shapeCast Pts (fun j => g (shapeCast Flat x h1 j)) h4 = fun i => g (x i) := by
  funext i
  exact congrArg g (congrFun (shapeCast_shapeCast x h1 h4) i)

/-- The detour through the padded rows computes g of x entry by entry. -/
theorem detour {α β : Type} (g : α → β) (x : Pts.Idx → α) {u : Shape} (v : u.Idx → α)
    (h1 : Pts.ShapeCasts Flat) (hp : Flat.Pads (![0] : Fin 1 → Nat) ![3520] ![0] FlatPad) (hu : 0 < u.numel)
    (h2 : FlatPad.ShapeCasts Rows) (h3 : Rows.ShapeCasts FlatPad) (hs : FlatPad.Slices ![0] Flat)
    (h4 : Flat.ShapeCasts Pts) :
    shapeCast Pts
        (extractStridedSlice Flat ![0]
          (shapeCast FlatPad
            (fun i => g (shapeCast Rows (pad FlatPad ![0] ![3520] ![0] (shapeCast Flat x h1) v hp hu) h2 i)) h3) hs) h4
      = fun i => g (x i) := by
  rw [unfold_map_fold g _ h2 h3, keep_map_pad g _ v hp hu hs, fold_map_list g x h1 h4]

end Cert.Spec

end
-- ==== Proof.Blocks.lean ====
/-
  What the kernel leaves in its output array.

  The region walks 4 grid points.  At point t the pipeline fetches rows 1960·t … 1960·t + 1959 of the [7840, 128]
  input array into a buffer, the body replaces every entry x of that block by its screen coordinate 2·σ(x) − 1,
  and the pipeline writes the block back to the same rows of the output array.  The input and the output window
  move together (same block index at every point), the four blocks tile the 7840 rows, and the body acts entry by
  entry; so after the region the output array is the screen coordinate of the input array, entry by entry.
-/
import proofs.«104068_j80075370266852_2_alg».proof.Proof.Gen.KernelIdeal.Frame
import proofs.«104068_j80075370266852_2_alg».proof.Proof.Sigmoid
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The body's one load and one store start at the origin of the block. -/
theorem origin : (![0, 0] : Fin 2 → Nat) = fun _ => 0 := funext fun a => by fin_cases a <;> rfl

/-- The body's arithmetic: the stored value at entry j is the screen coordinate of the loaded value at entry j
    (the cast to the same shape is the identity; the logistic function, the product with the splat 2 and the
    difference with the splat 1 act entry by entry). -/
theorem body_value (v0 : Vec Ideal S1960x128 .f32) :
    k0_pay1 (F := Ideal) v0 = fun j => Cert.Spec.screen (v0 j) := by
  unfold k0_pay1
  rw [shapeCast_self]
  rfl

/-- The two windows move together: at every grid point the input's block index is the output's, on both axes; the
    output's row-block index is at most 3 and its lane-block index is 0. -/
theorem idx_facts : ∀ t : Fin cfg0.N, win0_0.index t (0 : Fin 2) = win0_1.index t (0 : Fin 2)
    ∧ win0_0.index t (1 : Fin 2) = win0_1.index t (1 : Fin 2)
    ∧ win0_1.index t (0 : Fin 2) ≤ 3 ∧ win0_1.index t (1 : Fin 2) = 0 :=
  (by decide +kernel : ∀ t : Fin grid0.N, _)

/-- Each of the four row blocks is some grid point's. -/
theorem idx_onto : ∀ q : Fin 4, ∃ t : Fin cfg0.N, win0_1.index t = ![q.val, 0] :=
  (by decide +kernel : ∀ q : Fin 4, ∃ t : Fin grid0.N, win0_1.index t = ![q.val, 0])

/-- What point t writes back is block t of the screen coordinates of the input array as the region finds it. -/
theorem flushed_eq (c : Dev nD) (t : Fin cfg0.N) :
    (dats m 0 c).flushed 1 t
      = ((cfg0.win 1).blk t).view.read (Elt Ideal) (fun i => Cert.Spec.screen (V m c main_v2 i)) := by
  show (cfg0.win 1).cut (grid0.coords t) ((dats m 0 c).after 1 t) = _
  rw [after0_1]
  unfold out0_1
  rw [View.canon_unit_zero origin]
  simp only [View.ld_unit_zero (S := S1960x128) origin]
  rw [body_value]
  obtain ⟨e0, e1, -, -⟩ := idx_facts t
  funext j
  show Cert.Spec.screen (V m c main_v2 (((cfg0.win 0).blk t).view.emb j))
    = Cert.Spec.screen (V m c main_v2 (((cfg0.win 1).blk t).view.emb j))
  -- entry j of the input block and entry j of the output block sit at the same place of their arrays:
  -- block index × block size + the coordinate inside the block, on each axis
  have same : ((cfg0.win 0).blk t).view.emb j = ((cfg0.win 1).blk t).view.emb j := by
    funext a; apply Fin.ext
    match a with
    | ⟨0, _⟩ =>
      show win0_0.index t (0 : Fin 2) * 1960 + 1 * (j 0).val = win0_1.index t (0 : Fin 2) * 1960 + 1 * (j 0).val
      omega
    | ⟨1, _⟩ =>
      show win0_0.index t (1 : Fin 2) * 128 + 1 * (j 1).val = win0_1.index t (1 : Fin 2) * 128 + 1 * (j 1).val
      omega
  rw [same]

/-- An entry of the output array is in point t's block iff, on each axis, its coordinate lies in the block's
    range: block index × block size ≤ coordinate < block index × block size + block size. -/
theorem mem_blk (t : Fin cfg0.N) (i : S7840x128.Idx) :
    i ∈ ((cfg0.win 1).blk t).view.set ↔ ∀ a : Fin 2, win0_1.index t a * S1960x128.size a ≤ (i a).val
      ∧ (i a).val < win0_1.index t a * S1960x128.size a + S1960x128.size a := by
  show i ∈ ((View.whole main_v3).slice (win0_1.rect t)).set ↔ _
  rw [View.set_slice_whole, Rect.mem_set_unit]
  exact Iff.rfl

/-- Every entry of the output array is written back by some point: row r lies in row block r / 1960 < 4. -/
theorem cover (i : S7840x128.Idx) :
    ∃ t : Fin cfg0.N, (cfg0.win 1).flush t = true ∧ i ∈ ((cfg0.win 1).blk t).view.set := by
  have hi0 : (i 0).val < 7840 := (i 0).isLt
  have hi1 : (i 1).val < 128 := (i 1).isLt
  obtain ⟨t, ht⟩ := idx_onto ⟨(i 0).val / 1960, by omega⟩
  have q0 : win0_1.index t (0 : Fin 2) = (i 0).val / 1960 := congrFun ht 0
  have q1 : win0_1.index t (1 : Fin 2) = 0 := congrFun ht 1
  refine ⟨t, flush0_1 t, ?_⟩
  rw [mem_blk]
  intro a
  match a with
  | ⟨0, _⟩ =>
    show win0_1.index t (0 : Fin 2) * 1960 ≤ (i 0).val ∧ (i 0).val < win0_1.index t (0 : Fin 2) * 1960 + 1960
    omega
  | ⟨1, _⟩ =>
    show win0_1.index t (1 : Fin 2) * 128 ≤ (i 1).val ∧ (i 1).val < win0_1.index t (1 : Fin 2) * 128 + 128
    omega

/-- After the region the output array holds the screen coordinate of every entry of the input array. -/
theorem output_array (c : Dev nD) :
    (dats m 0 c).arrAt 1 cfg0.N = fun i => Cert.Spec.screen (V m c main_v2 i) :=
  (dats m 0 c).arrAt_eq_of_cover 1 (fun i => Cert.Spec.screen (V m c main_v2 i))
    (fun t _ => flushed_eq m c t) cover

end Cert.KernelIdeal.Blocks

end
-- ==== Proof.Around.lean ====
/-
  The kernel program around its region, read as mathematics.

  Before the region the program lists the points' 1 000 000 logits in row-major order, appends 3520 zeros and folds
  the list into 7840 rows of 128: that is the array the region's input window reads.  After the region it unfolds
  the output array into a list, keeps the first 1 000 000 entries, folds them back into [500000, 2], pins rows 0…3 to
  the boundary corners and appends a column of ones.  The region maps the screen coordinate over its input array
  entry by entry; the detour through the padded rows is then the screen coordinate of the points themselves, and what
  is left is the pinning and the ones column applied to it.
-/
import proofs.«104068_j80075370266852_2_alg».proof.Proof.Gen.KernelIdeal.Frame
import proofs.«104068_j80075370266852_2_alg».proof.Proof.Sigmoid
import proofs.«104068_j80075370266852_2_alg».proof.Proof.Detour
import proofs.«104068_j80075370266852_2_alg».proof.Proof.Blocks
import Idealize.ShloMosaic.Lib.Pipeline.Value
import Idealize.ShloMosaic.Lib.StableHlo.Run

noncomputable section

namespace Cert.KernelIdeal.Around

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The array the region's input window reads: the points' logits listed in row-major order, 3520 copies of the
    integer 0 converted to a float appended, the list folded into 7840 rows of 128. -/
theorem entry_array (c : Dev nD) :
    (V m c main_v2 : S7840x128.Idx → Elt Ideal .f32)
      = shapeCast S7840x128
          (pad S1003520 ![0] ![3520] ![0]
            (shapeCast S1000000 (m ((c : Thread nD τ).loc main_arg0) : S500000x2.Idx → Elt Ideal .f32)
              shapeCasts_S500000x2_S1000000)
            (sitofp (F := Ideal) .f32 (constantI S_ 32 0#32)) pads_S1000000_S1003520_035200 h_S_)
          shapeCasts_S1003520_S7840x128 := by
  dsimp only [V, V0]
  simp only [hostOps0, hostOps0_1, hostOps0_2, List.flatten_cons, List.flatten_nil, List.append_nil, List.cons_append,
    List.nil_append]
  after_results
  simp only [TRef.toBuf, TRef.ofBuf, cast_eq]
  rfl

/-- After the region the output window's array holds what the region's last write-backs left in it. -/
theorem region_output (c : Dev nD) :
    Pipeline.withArrays (cfgs 0).spec c (V0 m c) (fun w => (dats m 0 c).arrAt w (cfgs 0).N) (Proc.devRef .tc main_v3)
      = (dats m 0 c).arrAt 1 cfg0.N :=
  Pipeline.withArrays_arr spec0 launch0.win.arr_inj c _ _ 1

/-- The boundary corners are no window's array: the region leaves them as launched. -/
theorem region_keeps_boundary (c : Dev nD) :
    Pipeline.withArrays (cfgs 0).spec c (V0 m c) (fun w => (dats m 0 c).arrAt w (cfgs 0).N)
        (Proc.devRef .tc main_arg2)
      = m ((c : Thread nD τ).loc main_arg2) :=
  (Pipeline.withArrays_of_ne _ c (V0 m c) _ main_arg2
    (by exact (by decide : ∀ w, Pipeline.arrRef spec0 w ≠ main_arg2))).trans (V_main_arg2 m c)

/-- THE RESULT: the program's first result is the screen coordinates of the points, rows 0…3 pinned to the boundary
    corners, a column of ones appended. -/
theorem result (c : Dev nD) :
    Pipeline.afterTail₀ cfgs (dats m) 0 (V0 m) [hostOps1, hostOps1_1] c main_v9
      = pad S500000x3 ![0, 0] ![0, 1] ![0, 0]
          (Host.scatter scatter_S500000x2_S1_S4x2_01_n_0_0 (fun _ b => b)
            (fun i => Cert.Spec.screen ((m ((c : Thread nD τ).loc main_arg0) : S500000x2.Idx → Elt Ideal .f32) i))
            (broadcastInDim S1 ![] bcast_S_S1 (constantI S_ 32 0#32))
            (m ((c : Thread nD τ).loc main_arg2)))
          (id (constant (F := Ideal) S_ .f32 0x3F800000#32)) pads_S500000x2_S500000x3_000_010 h_S_ := by
  unfold Pipeline.afterTail₀
  simp only [hostOps1, hostOps1_1, List.flatten_cons, List.flatten_nil, List.append_nil, List.cons_append,
    List.nil_append]
  after_results
  simp only [TRef.toBuf, TRef.ofBuf, cast_eq]
  rw [region_output m c, region_keeps_boundary m c, Cert.KernelIdeal.Blocks.output_array m c, entry_array m c]
  -- the pinning and the ones column are applied to the same array on both sides once the detour is read
  refine congrArg (fun core : S500000x2.Idx → Elt Ideal .f32 =>
    pad S500000x3 ![0, 0] ![0, 1] ![0, 0]
      (Host.scatter scatter_S500000x2_S1_S4x2_01_n_0_0 (fun _ b => b) core
        (broadcastInDim S1 ![] bcast_S_S1 (constantI S_ 32 0#32)) (m ((c : Thread nD τ).loc main_arg2)))
      (id (constant (F := Ideal) S_ .f32 0x3F800000#32)) pads_S500000x2_S500000x3_000_010 h_S_) ?_
  exact Cert.Spec.detour Cert.Spec.screen _ _ _ _ _ _ _ _ _

end Cert.KernelIdeal.Around

end
-- ==== Proof.lean ====
/-
  The screen projection of 500 000 points: kernel against reference.

  Both programs send every logit x of the [500000, 2] array of points to its screen coordinate 2·σ(x) − 1
  (σ the logistic function), pin rows 0…3 to the four boundary corners and append a column of ones; the two other
  results are arguments handed back.  The reference does this on the points directly, spelling σ(x) as
  1 / (1 + e^(−x)).  The kernel lists the points' logits in row-major order, pads the list to 7840 rows of 128, maps
  the screen coordinate over the rows block by block (4 blocks of 1960 rows, σ as one operation), and undoes the
  listing and the padding before the pinning.

  Why the results agree on the extended reals: σ IS its spelt-out expression there (Proof/Sigmoid.lean); the blocks
  tile the rows and the body acts entry by entry (Proof/Blocks.lean); listing, padding, folding and their inverses only
  move entries, and the padding is dropped (Proof/Detour.lean); so the kernel's array before the pinning is the
  reference's (Proof/Around.lean, Proof/RefValue.lean), and the pinning and the ones column are the same operations
  on both sides.  No step uses that the inputs are finite.
-/
import proofs.«104068_j80075370266852_2_alg».proof.Defs
import proofs.«104068_j80075370266852_2_alg».proof.Proof.Gen.Kernel
import proofs.«104068_j80075370266852_2_alg».proof.Proof.Gen.Kernel.Frame
import proofs.«104068_j80075370266852_2_alg».proof.Proof.Gen.KernelIdeal
import proofs.«104068_j80075370266852_2_alg».proof.Proof.Gen.KernelIdeal.Frame
import proofs.«104068_j80075370266852_2_alg».proof.Proof.Gen.ReferenceIdeal
import proofs.«104068_j80075370266852_2_alg».proof.Proof.Gen.Pre_finite_inputs
import proofs.«104068_j80075370266852_2_alg».proof.Proof.RefRun
import proofs.«104068_j80075370266852_2_alg».proof.Proof.RefValue
import proofs.«104068_j80075370266852_2_alg».proof.Proof.Around
import Idealize.ShloMosaic.Adequacy
import Idealize.ShloMosaic.Init

noncomputable section

namespace Cert.Proof

open Idealize.ShloMosaic Idealize.ShloMosaic.TcCoe Idealize.SL.Sem

/-- The kernel program runs and hands its arguments back unchanged (the generated frame). -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference has no kernel: its frame is its run with the results dropped. -/
theorem frame_reference : Cert.frame_ReferenceIdeal := fun m ρ _ =>
  (θ_run Cert.ReferenceIdeal.defs _ _).mono (fun _ h c => (h c).2.2.2)
    (Cert.ReferenceIdeal.ValueP.run (F := Ideal) m ρ)

/-- The ideal pass rewrote nothing. -/
theorem preserves : Cert.preserves_Kernel_KernelIdeal := trivial

section KernelRun

open Cert.KernelIdeal Cert.KernelIdeal.Gen

/-- The idealized kernel program's run, read: its first result is the pinned, ones-padded screen coordinates of the
    points; its other results and all its arguments are as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9)
          = pad S500000x3 ![0, 0] ![0, 1] ![0, 0]
              (Host.scatter scatter_S500000x2_S1_S4x2_01_n_0_0 (fun _ b => b)
                (fun i => Cert.Spec.screen
                  ((m ((c.tc : Thread nD τ).loc main_arg0) : S500000x2.Idx → Elt Ideal .f32) i))
                (broadcastInDim S1 ![] bcast_S_S1 (constantI S_ 32 0#32))
                (m ((c.tc : Thread nD τ).loc main_arg2)))
              (id (constant (F := Ideal) S_ .f32 0x3F800000#32)) pads_S500000x2_S500000x3_000_010 h_S_
      ∧ r.2.mem ((c.tc : Thread nD τ).loc main_arg3) = m ((c.tc : Thread nD τ).loc main_arg3)
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have k0 := ((h c).2 main_arg0 (Pipeline.mem_restRefs_of main_arg0 (by decide) (by decide))).trans (W_main_arg0 m (dats m) c)
    have k1 := ((h c).2 main_arg1 (Pipeline.mem_restRefs_of main_arg1 (by decide) (by decide))).trans (W_main_arg1 m (dats m) c)
    have k2 := ((h c).2 main_arg2 (Pipeline.mem_restRefs_of main_arg2 (by decide) (by decide))).trans (W_main_arg2 m (dats m) c)
    have k3 := ((h c).2 main_arg3 (Pipeline.mem_restRefs_of main_arg3 (by decide) (by decide))).trans (W_main_arg3 m (dats m) c)
    ⟨((h c).2 main_v9 (Pipeline.mem_restRefs_of main_v9 (by decide) (by decide))).trans (Cert.KernelIdeal.Around.result m c),
      k3, k1, k0, k1, k2, k3⟩)
    (run_main m ρ)

end KernelRun

/-- At the ideal instance, from memories agreeing on the arguments, both programs end with the pinned, ones-padded
    screen coordinates of the points as first result, and hand the faces and the features back. -/
theorem algebraic : Cert.algebraic_KernelIdeal_ReferenceIdeal := by
  intro m ρ m' ρ' _ hagree
  refine ⟨_, _, _, kernel_run m ρ, ?_⟩
  refine (θ_run Cert.ReferenceIdeal.defs _ _).mono (fun _ h c =>
      ⟨(h c).1.trans ?_, (h c).2.1.trans (hagree c).2.2.2, (h c).2.2.1.trans (hagree c).2.1, (h c).2.2.2⟩)
    (Cert.ReferenceIdeal.ValueP.run (F := Ideal) m' ρ')
  -- the reference's array before the pinning is the screen coordinates of its points, which are the kernel's points;
  -- the pinning and the ones column are then the same operations applied to the same arrays
  rw [Cert.ReferenceIdeal.Spelt.core, (hagree c).1, (hagree c).2.2.1]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
